-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S128x1024x512 : Shape := ⟨3, ![128, 1024, 512]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S128x1024x512 : S_.BroadcastsInDim S128x1024x512 (![] : Fin 0 → Fin S128x1024x512.rank)
  reducesTo_S128x1024x512_S_d0_1_2 : S128x1024x512.ReducesTo [0, 1, 2] S_

variable [Facts]

def fn {F : FTy → Type} [FloatOps F] (main_arg0 : FVec F S131072x32 .f32) (main_arg1 : FVec F S128x1024x512 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S128x1024x512 .f32 := Host.absf main_arg1
  let main_cst_0 : FVec F S_ .f32 := constant S_ .f32 0x7F800000#32
  let main_v5 : FVec F S128x1024x512 .f32 := broadcastInDim S128x1024x512 ![] bcast_S_S128x1024x512 main_cst_0
  let main_v6 : IVec S128x1024x512 1 := cmpf .olt main_v4 main_v5
  let main_c_1 : IVec S_ 1 := constantI S_ 1 1#1
  let main_v7 : IVec S_ 1 := (fun x v => Host.reduce IntOp.andi x v reducesTo_S128x1024x512_S_d0_1_2 h_S_) main_v6 main_c_1
  let main_v8 : IVec S_ 1 := andi main_v3 main_v7
  main_v8
-- ==== Kernel.lean ====
abbrev S131072x32 : Shape := ⟨2, ![131072, 32]⟩
abbrev S128x1024x512 : Shape := ⟨3, ![128, 1024, 512]⟩
abbrev S128x1024x32 : Shape := ⟨3, ![128, 1024, 32]⟩
abbrev S128x512x32 : Shape := ⟨3, ![128, 512, 32]⟩
abbrev S4x1024x512 : Shape := ⟨3, ![4, 1024, 512]⟩
abbrev S4x1024x32 : Shape := ⟨3, ![4, 1024, 32]⟩
abbrev S4x512x32 : Shape := ⟨3, ![4, 512, 32]⟩
abbrev S65536x32 : Shape := ⟨2, ![65536, 32]⟩

abbrev nBuf : Space → Nat
  | .hbm => 5
  | .vmem => 6
  | .smem => 0
  | _ => 0

abbrev bufTy : (tb : Table) → Fin (tcTables nBuf tb) → BufTy
  | .hbm, ⟨0, _⟩ => ⟨S131072x32, .f32⟩
  | .hbm, ⟨1, _⟩ => ⟨S128x1024x512, .f32⟩
  | .hbm, ⟨2, _⟩ => ⟨S128x1024x32, .f32⟩
  | .hbm, ⟨3, _⟩ => ⟨S128x512x32, .f32⟩
  | .hbm, ⟨4, _⟩ => ⟨S65536x32, .f32⟩
  | .local _ .vmem, ⟨0, _⟩ => ⟨S4x1024x512, .f32⟩
  | .local _ .vmem, ⟨1, _⟩ => ⟨S4x1024x512, .f32⟩
  | .local _ .vmem, ⟨2, _⟩ => ⟨S4x1024x32, .f32⟩
  | .local _ .vmem, ⟨3, _⟩ => ⟨S4x1024x32, .f32⟩
  | .local _ .vmem, ⟨4, _⟩ => ⟨S4x512x32, .f32⟩
  | .local _ .vmem, ⟨5, _⟩ => ⟨S4x512x32, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S131072x32_S128x1024x32 : S131072x32.ShapeCasts S128x1024x32
  inb_S4x1024x512_S4x1024x512_0_0_0 : ∀ a, (![0, 0, 0] : Fin 3 → Nat) a + S4x1024x512.size a ≤ S4x1024x512.size a
  h_S4x1024x512 : 0 < S4x1024x512.numel
  bitsLt_bf16_f32 : FTy.bits .bf16 < FTy.bits .f32
  inb_S4x1024x32_S4x1024x32_0_0_0 : ∀ a, (![0, 0, 0] : Fin 3 → Nat) a + S4x1024x32.size a ≤ S4x1024x32.size a
  h_S4x1024x32 : 0 < S4x1024x32.numel
  shapeCasts_S4x1024x32_S4x1024x32 : S4x1024x32.ShapeCasts S4x1024x32
  inb_S4x512x32_S4x512x32_0_0_0 : ∀ a, (![0, 0, 0] : Fin 3 → Nat) a + S4x512x32.size a ≤ S4x512x32.size a
  h_S4x512x32 : 0 < S4x512x32.numel
  shapeCasts_S128x512x32_S65536x32 : S128x512x32.ShapeCasts S65536x32
  dot_S4x1024x512_S4x1024x32_S4x512x32_1_1_2_2_0_0_wf : DotDims.WF S4x1024x512 S4x1024x32 S4x512x32 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S128x1024x512.size a
  hwx0_0 : ∀ i : grid0.Coords, EltTy.bits .f32 = 32 ∨ (Rect.block (s := S128x1024x512) S4x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x32.size a ≤ S128x1024x32.size a
  hwx0_1 : ∀ i : grid0.Coords, EltTy.bits .f32 = 32 ∨ (Rect.block (s := S128x1024x32) S4x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x32.size a ≤ S128x512x32.size a
  hwx0_2 : ∀ i : grid0.Coords, EltTy.bits .f32 = 32 ∨ (Rect.block (s := S128x512x32) S4x512x32.size (cc0_transform_2 i) (hinb0_2 i)).WholeWords (EltTy.packing .f32)

variable [Facts₀]

def dot_S4x1024x512_S4x1024x32_S4x512x32_1_1_2_2_0_0 : DotDims S4x1024x512 S4x1024x32 S4x512x32 where
  lhsContracting := [1]
  rhsContracting := [1]
  lhsNonContracting := [2]
  rhsNonContracting := [2]
  lhsBatch := [0]
  rhsBatch := [0]
  wf := dot_S4x1024x512_S4x1024x32_S4x512x32_1_1_2_2_0_0_wf

abbrev win0_0 : Pipeline.Window sig grid0 :=
  Pipeline.Window.ofSpec (Memref.whole main_arg1) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x32 : Shape := ⟨2, ![131072, 32]⟩
abbrev S128x1024x512 : Shape := ⟨3, ![128, 1024, 512]⟩
abbrev S128x1024x32 : Shape := ⟨3, ![128, 1024, 32]⟩
abbrev S128x512x32 : Shape := ⟨3, ![128, 512, 32]⟩
abbrev S65536x32 : Shape := ⟨2, ![65536, 32]⟩

abbrev nBuf : Space → Nat
  | .hbm => 5
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S128x1024x512, .f32⟩
  | .hbm, ⟨2, _⟩ => ⟨S128x1024x32, .f32⟩
  | .hbm, ⟨3, _⟩ => ⟨S128x512x32, .f32⟩
  | .hbm, ⟨4, _⟩ => ⟨S65536x32, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S131072x32_S128x1024x32 : S131072x32.ShapeCasts S128x1024x32
  shapeCasts_S128x512x32_S65536x32 : S128x512x32.ShapeCasts S65536x32
  dot_S128x1024x512_S128x1024x32_S128x512x32_1_1_2_2_0_0_wf : DotDims.WF S128x1024x512 S128x1024x32 S128x512x32 [1] [1] [2] [2] [0] [0]

variable [Facts₀]

def dot_S128x1024x512_S128x1024x32_S128x512x32_1_1_2_2_0_0 : DotDims S128x1024x512 S128x1024x32 S128x512x32 where
  lhsContracting := [1]
  rhsContracting := [1]
  lhsNonContracting := [2]
  rhsNonContracting := [2]
  lhsBatch := [0]
  rhsBatch := [0]
  wf := dot_S128x1024x512_S128x1024x32_S128x512x32_1_1_2_2_0_0_wf

class Facts : Prop extends Facts₀ where

variable [Facts]
-- ==== Proof.Pooling.lean ====
/-
  Haar pooling of a batch of graphs, over the extended reals.

  A batch holds 128 graphs of 1024 nodes each; node features have 32 channels and every graph `b` carries a
  basis matrix `U[b] : 1024 × 512`. Pooling sends graph `b`'s features `X[b] : 1024 × 32` to
  `U[b]ᵀ · X[b] : 512 × 32`: entry `(r, f)` is `∑ n, U[b, n, r] · X[b, n, f]`, a sum over the graph's nodes.
  The features arrive stacked, `x : 131072 × 32` with graph `b` in rows `1024 b … 1024 b + 1023`, and the pooled
  features leave stacked the same way, `65536 × 32`; both stackings are row-major regroupings of the entries.
  Nothing here depends on a program: the sum is stated once, over literal extents, and the two programs are
  each shown to compute it.
-/
import Idealize.ShloMosaic.PureOps.Ideal
import Idealize.ShloMosaic.Lib.ValueIdx

noncomputable section

namespace Cert.HaarPool

open Idealize.ShloMosaic Idealize.ShloMosaic.ValueIdx

/-- The basis matrices of all graphs: `[graph, node, pooled node]`. -/
abbrev Basis : Type := (⟨3, ![128, 1024, 512]⟩ : Shape).Idx → EReal
/-- Per-graph node features: `[graph, node, channel]`. -/
abbrev Feats : Type := (⟨3, ![128, 1024, 32]⟩ : Shape).Idx → EReal
/-- Per-graph pooled features: `[graph, pooled node, channel]`. -/
abbrev Pooled : Type := (⟨3, ![128, 512, 32]⟩ : Shape).Idx → EReal

/-- One pooled entry: graph `b`, pooled node `r`, channel `f` — the column `r` of `U[b]` against the column `f` of
    `X[b]`, summed over the graph's 1024 nodes. -/
def entry (U : Basis) (X : Feats) (b : Fin 128) (r : Fin 512) (f : Fin 32) : EReal :=
  ∑ n : Fin 1024, U (ix3 b n r) * X (ix3 b n f)

/-- All pooled entries as one array. -/
def pooled (U : Basis) (X : Feats) : Pooled := fun i => entry U X (i 0) (i 1) (i 2)

theorem pooled_apply (U : Basis) (X : Feats) (b : Fin 128) (r : Fin 512) (f : Fin 32) :
    pooled U X (ix3 b r f) = entry U X b r f := rfl

/-- The whole map: unstack the features into per-graph blocks, pool every graph, stack the pooled blocks. The two
    regroupings are row-major re-indexings (`hx`, `hr`: the entry counts agree), applied identically by both
    programs, so they are carried along and never opened. -/
def stacked (x : (⟨2, ![131072, 32]⟩ : Shape).Idx → EReal) (U : Basis)
    (hx : (⟨2, ![131072, 32]⟩ : Shape).ShapeCasts ⟨3, ![128, 1024, 32]⟩)
    (hr : (⟨3, ![128, 512, 32]⟩ : Shape).ShapeCasts ⟨2, ![65536, 32]⟩) : (⟨2, ![65536, 32]⟩ : Shape).Idx → EReal :=
  shapeCast ⟨2, ![65536, 32]⟩ (pooled U (shapeCast ⟨3, ![128, 1024, 32]⟩ x hx)) hr

end Cert.HaarPool

end
-- ==== Proof.BlockProduct.lean ====
/-
  What the kernel body computes on one block of four graphs.

  The body loads a block `u : 4 × 1024 × 512` of basis matrices and a block `xb : 4 × 1024 × 32` of node features,
  narrows both to sixteen-bit floats (over the extended reals a change of float format is the identity), and
  multiplies them graph by graph into a zero accumulator, contracting the node axis: for a graph `g` of the block the
  result's entry `(g, r, f)` is `0 + ∑ n, u[g, n, r] · xb[g, n, f]`. The only work is to name the two operand indices
  the contraction visits — the batch coordinate is `g` on both sides, the contracted coordinate is the summation
  variable, the free coordinate is `r` on the left and `f` on the right — and to index the sum by `Fin 1024`.
-/
import proofs.«177638_j25598005085127_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The block product's dimension numbers: batch axis 0 on both operands, contracted axis 1 on both, free axis 2 on both. -/
abbrev blockDot : DotDims S4x1024x512 S4x1024x32 S4x512x32 := dot_S4x1024x512_S4x1024x32_S4x512x32_1_1_2_2_0_0

/-! The left operand's index at output index `i` and contraction index `q`: `(i 0, q, i 1)`. -/

theorem lhs_graph (i : S4x512x32.Idx) (q : blockDot.contr.Idx) : (blockDot.lhsIdx i q 0).val = (i 0).val := by
  unfold DotDims.lhsIdx
  rw [dif_pos (show (0 : Fin S4x1024x512.rank) ∈ blockDot.lhsBatch by decide)]
  rfl
theorem lhs_node (i : S4x512x32.Idx) (q : blockDot.contr.Idx) : (blockDot.lhsIdx i q 1).val = (q ⟨0, by decide⟩).val :=
  blockDot.lhsIdx_val_of_single rfl i q
theorem lhs_free (i : S4x512x32.Idx) (q : blockDot.contr.Idx) : (blockDot.lhsIdx i q 2).val = (i 1).val := by
  unfold DotDims.lhsIdx
  rw [dif_neg (show ¬(2 : Fin S4x1024x512.rank) ∈ blockDot.lhsBatch by decide),
    dif_pos (show (2 : Fin S4x1024x512.rank) ∈ blockDot.lhsNonContracting by decide)]
  rfl

/-! The right operand's index: `(i 0, q, i 2)`. -/

theorem rhs_graph (i : S4x512x32.Idx) (q : blockDot.contr.Idx) : (blockDot.rhsIdx i q 0).val = (i 0).val := by
  unfold DotDims.rhsIdx
  rw [dif_pos (show (0 : Fin S4x1024x32.rank) ∈ blockDot.rhsBatch by decide)]
  rfl
theorem rhs_node (i : S4x512x32.Idx) (q : blockDot.contr.Idx) : (blockDot.rhsIdx i q 1).val = (q ⟨0, by decide⟩).val :=
  blockDot.rhsIdx_val_of_single rfl i q
theorem rhs_free (i : S4x512x32.Idx) (q : blockDot.contr.Idx) : (blockDot.rhsIdx i q 2).val = (i 2).val := by
  unfold DotDims.rhsIdx
  rw [dif_neg (show ¬(2 : Fin S4x1024x32.rank) ∈ blockDot.rhsBatch by decide),
    dif_pos (show (2 : Fin S4x1024x32.rank) ∈ blockDot.rhsNonContracting by decide)]
  rfl

/-- The body's stored value at entry `(g, r, f)` of the block: the sum over the 1024 nodes of graph `g` of the basis
    entry `(g, n, r)` times the feature entry `(g, n, f)`. -/
theorem body_apply (u : Vec Ideal S4x1024x512 .f32) (xb : Vec Ideal S4x1024x32 .f32) (g : Fin 4) (r : Fin 512) (f : Fin 32) :
    k0_pay1 (F := Ideal) u xb (ix3 g r f) = ∑ n : Fin 1024, u (ix3 g n r) * xb (ix3 g n f) := by
  unfold k0_pay1
  rw [shapeCast_self]
  refine (Ideal.matmul_constant_zero_apply blockDot none _ _ (ix3 g r f)).trans ?_
  rw [← Equiv.sum_comp (contrEquiv1 blockDot 1024 rfl rfl).symm]
  refine Finset.sum_congr rfl fun n _ => ?_
  have hn := contrEquiv1_symm_val blockDot 1024 rfl rfl n
  have el : blockDot.lhsIdx (ix3 g r f) ((contrEquiv1 blockDot 1024 rfl rfl).symm n) = ix3 g n r :=
    funext fun a => Fin.ext (by
      match a with
      | ⟨0, _⟩ => exact lhs_graph _ _
      | ⟨1, _⟩ => exact (lhs_node _ _).trans hn
      | ⟨2, _⟩ => exact lhs_free _ _)
  have er : blockDot.rhsIdx (ix3 g r f) ((contrEquiv1 blockDot 1024 rfl rfl).symm n) = ix3 g n f :=
    funext fun a => Fin.ext (by
      match a with
      | ⟨0, _⟩ => exact rhs_graph _ _
      | ⟨1, _⟩ => exact (rhs_node _ _).trans hn
      | ⟨2, _⟩ => exact rhs_free _ _)
  rw [el, er]
  rfl

end Cert.KernelIdeal.BlockProduct

end
-- ==== Proof.BlockReads.lean ====
/-
  Which entries of the arrays a grid point sees.

  The grid has 32 points. At point `t` every window sits at block index `(t, 0, 0)`: the basis block is graphs
  `4 t … 4 t + 3` of the basis array, whole in its two other axes, and likewise for the feature block and for the
  pooled block that is written back. So entry `(g, n, r)` of the basis block at point `t` is entry `(4 t + g, n, r)` of
  the basis array, and the same with the feature block. The feature array the region reads is not an argument
  of the program but the unstacking of the stacked features, written by the one host operation before the region.
-/
import proofs.«177638_j25598005085127_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.BlockReads

open Cert.KernelIdeal Cert.KernelIdeal.Gen Idealize.ShloMosaic.StableHlo

variable {F : FTy → Type} [FloatOps F]
variable (m : (ℓ : Loc nD τ sig) → Buf (Elt F) ℓ)

/-- The three index maps at every grid point: block `(t, 0, 0)`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry `y` of the basis block at point `t` is the basis array's entry four graphs per point further on. -/
theorem basis_block (c : Dev nD) (t : Fin cfg0.N) (y : S4x1024x512.Idx) (k : S128x1024x512.Idx)
    (h0 : (k 0).val = 4 * t.val + (y 0).val) (h1 : (k 1).val = (y 1).val) (h2 : (k 2).val = (y 2).val) :
    (iblk m c 0 t : Vec F S4x1024x512 .f32) y = (V m c main_arg1 : S128x1024x512.Idx → Elt F .f32) k := by
  obtain ⟨e0, e1, e2, -⟩ := block_index t
  unfold iblk
  rw [View.read_apply]
  show V m c main_arg1 _ = V m c main_arg1 _
  congr 1
  funext a
  apply Fin.ext
  match a with
  | ⟨0, _⟩ => show win0_0.index t (0 : Fin 3) * 4 + 1 * (y 0).val = (k 0).val; rw [e0, h0]; omega
  | ⟨1, _⟩ => show win0_0.index t (1 : Fin 3) * 1024 + 1 * (y 1).val = (k 1).val; rw [e1, h1]; omega
  | ⟨2, _⟩ => show win0_0.index t (2 : Fin 3) * 512 + 1 * (y 2).val = (k 2).val; rw [e2, h2]; omega

/-- Entry `y` of the feature block at point `t` is the per-graph feature array's entry four graphs per point further on. -/
theorem feats_block (c : Dev nD) (t : Fin cfg0.N) (y : S4x1024x32.Idx) (k : S128x1024x32.Idx)
    (h0 : (k 0).val = 4 * t.val + (y 0).val) (h1 : (k 1).val = (y 1).val) (h2 : (k 2).val = (y 2).val) :
    (iblk m c 1 t : Vec F S4x1024x32 .f32) y = (V m c main_v0 : S128x1024x32.Idx → Elt F .f32) k := by
  obtain ⟨-, -, -, e0, e1, e2, -⟩ := block_index t
  unfold iblk
  rw [View.read_apply]
  show V m c main_v0 _ = V m c main_v0 _
  congr 1
  funext a
  apply Fin.ext
  match a with
  | ⟨0, _⟩ => show win0_1.index t (0 : Fin 3) * 4 + 1 * (y 0).val = (k 0).val; rw [e0, h0]; omega
  | ⟨1, _⟩ => show win0_1.index t (1 : Fin 3) * 1024 + 1 * (y 1).val = (k 1).val; rw [e1, h1]; omega
  | ⟨2, _⟩ => show win0_1.index t (2 : Fin 3) * 32 + 1 * (y 2).val = (k 2).val; rw [e2, h2]; omega

/-- The per-graph feature array the region reads is the stacked features regrouped row-major. -/
theorem feats_entry (c : Dev nD) :
    (V m c main_v0 : S128x1024x32.Idx → Elt F .f32)
      = shapeCast S128x1024x32 (m ((c : Thread nD τ).loc main_arg0) : S131072x32.Idx → Elt F .f32) shapeCasts_S131072x32_S128x1024x32 := by
  show StableHlo.after hostOps0 (fun b => m (c, b)) (Proc.devRef .tc main_v0) = _
  after_results
  rfl

end Cert.KernelIdeal.BlockReads

end
-- ==== Proof.PooledArray.lean ====
/-
  The pooled array the kernel's program leaves, and its run.

  At grid point `t` the body multiplies the basis block of graphs `4 t … 4 t + 3` with their feature block, so what the
  point writes back is the block `4 t … 4 t + 3` of ONE array: the pooled features `U[b]ᵀ · X[b]` of every graph, as a
  function of the basis array and of the per-graph feature array the region reads. The 32 blocks tile the 128 graphs
  (graph `b` lies in block `b / 4`), so after the region the output array is that array everywhere. The one host
  operation after the region stacks it, and the per-graph feature array is the unstacked features: the program's result
  is `HaarPool.stacked` of its two arguments.
-/
import proofs.«177638_j25598005085127_2_alg».proof.Proof.Pooling
import proofs.«177638_j25598005085127_2_alg».proof.Proof.BlockProduct
import proofs.«177638_j25598005085127_2_alg».proof.Proof.BlockReads

noncomputable section

open Idealize.ShloMosaic Idealize.ShloMosaic.TcCoe Idealize.SL.Sem
open Idealize.ShloMosaic.Pipeline (Dat)

namespace Cert.KernelIdeal.PooledArray

open Cert.KernelIdeal Cert.KernelIdeal.Gen Cert.HaarPool Idealize.ShloMosaic.ValueIdx Idealize.ShloMosaic.StableHlo

variable (m : (ℓ : Loc nD τ sig) → Buf (Elt Ideal) ℓ) (ρ : Dev nD → PrngReg)

theorem zero_offsets : (![0, 0, 0] : Fin 3 → Nat) = fun _ => 0 := funext fun a => by fin_cases a <;> rfl

/-- The pooled features of every graph, from the arrays as the region finds them. -/
abbrev pooledHere (c : Dev nD) : Pooled :=
  pooled (V m c main_arg1 : S128x1024x512.Idx → Elt Ideal .f32) (V m c main_v0 : S128x1024x32.Idx → Elt Ideal .f32)

/-- Entry `j` of what the body stores at point `t` is the pooled entry four graphs per point further on: the block
    product's sum over the graph's nodes, each factor read where its block sits in its array. -/
theorem block_entry (c : Dev nD) (t : Fin cfg0.N) (j : S4x512x32.Idx) (i : S128x512x32.Idx)
    (h0 : (i 0).val = 4 * t.val + (j 0).val) (h1 : (i 1).val = (j 1).val) (h2 : (i 2).val = (j 2).val) :
    k0_pay1 (F := Ideal) (iblk m c 0 t) (iblk m c 1 t) j = pooledHere m c i := by
  obtain ⟨g, r, f, rfl⟩ : ∃ (g : Fin 4) (r : Fin 512) (f : Fin 32), j = ix3 g r f := ⟨j 0, j 1, j 2, eq_ix3 j⟩
  obtain ⟨b, r', f', rfl⟩ : ∃ (b : Fin 128) (r' : Fin 512) (f' : Fin 32), i = ix3 b r' f' := ⟨i 0, i 1, i 2, eq_ix3 i⟩
  obtain rfl : r' = r := Fin.ext h1
  obtain rfl : f' = f := Fin.ext h2
  refine (BlockProduct.body_apply (iblk m c 0 t) (iblk m c 1 t) g r' f').trans ?_
  unfold pooledHere
  rw [pooled_apply]
  unfold entry
  refine Finset.sum_congr rfl fun n _ => ?_
  rw [BlockReads.basis_block m c t (ix3 g n r') (ix3 b n r') h0 rfl rfl,
    BlockReads.feats_block m c t (ix3 g n f') (ix3 b n f') h0 rfl rfl]

/-- What point `t` writes back is block `t` of the pooled array. -/
theorem flushed_eq (c : Dev nD) (t : Fin cfg0.N) :
    (dats m 0 c).flushed 2 t = ((cfg0.win 2).blk t).view.read (Elt Ideal) (pooledHere m c) := by
  show (cfg0.win 2).cut (grid0.coords t) ((dats m 0 c).after 2 t) = _
  rw [after0_2]
  unfold out0_2
  rw [View.canon_unit_zero zero_offsets]
  simp only [View.ld_unit_zero (S := S4x1024x512) zero_offsets, View.ld_unit_zero (S := S4x1024x32) zero_offsets]
  obtain ⟨-, -, -, -, -, -, e0, e1, e2⟩ := BlockReads.block_index t
  funext j
  rw [View.read_apply]
  show k0_pay1 (F := Ideal) (iblk m c 0 t) (iblk m c 1 t) j = _
  refine block_entry m c t j _ ?_ ?_ ?_
  · show win0_2.index t (0 : Fin 3) * 4 + 1 * (j 0).val = 4 * t.val + (j 0).val; omega
  · show win0_2.index t (1 : Fin 3) * 512 + 1 * (j 1).val = (j 1).val; omega
  · show win0_2.index t (2 : Fin 3) * 32 + 1 * (j 2).val = (j 2).val; omega

/-- An entry of the output array lies in point `t`'s block iff each coordinate lies in the block's range on its axis. -/
theorem mem_block (t : Fin cfg0.N) (i : S128x512x32.Idx) :
    i ∈ ((cfg0.win 2).blk t).view.set ↔ ∀ a : Fin 3, win0_2.index t a * S4x512x32.size a ≤ (i a).val
      ∧ (i a).val < win0_2.index t a * S4x512x32.size a + S4x512x32.size a := by
  show i ∈ ((View.whole main_v1).slice (win0_2.rect t)).set ↔ _
  rw [View.set_slice_whole, Rect.mem_set_unit]
  exact Iff.rfl

/-- Every entry is written back by some point: graph `b` by point `b / 4`. -/
theorem covered (i : S128x512x32.Idx) :
    ∃ t : Fin cfg0.N, (cfg0.win 2).flush t = true ∧ i ∈ ((cfg0.win 2).blk t).view.set := by
  have hN : cfg0.N = 32 := N_0
  have hi0 : (i 0).val < 128 := (i 0).isLt
  have hi1 : (i 1).val < 512 := (i 1).isLt
  have hi2 : (i 2).val < 32 := (i 2).isLt
  let t : Fin cfg0.N := ⟨(i 0).val / 4, by rw [hN]; omega⟩
  have ht : t.val = (i 0).val / 4 := rfl
  obtain ⟨-, -, -, -, -, -, e0, e1, e2⟩ := BlockReads.block_index t
  refine ⟨t, flush0_2 t, ?_⟩
  rw [mem_block]
  intro a
  match a with
  | ⟨0, _⟩ =>
    show win0_2.index t (0 : Fin 3) * 4 ≤ (i 0).val ∧ (i 0).val < win0_2.index t (0 : Fin 3) * 4 + 4
    rw [e0, ht]; omega
  | ⟨1, _⟩ =>
    show win0_2.index t (1 : Fin 3) * 512 ≤ (i 1).val ∧ (i 1).val < win0_2.index t (1 : Fin 3) * 512 + 512
    rw [e1]; omega
  | ⟨2, _⟩ =>
    show win0_2.index t (2 : Fin 3) * 32 ≤ (i 2).val ∧ (i 2).val < win0_2.index t (2 : Fin 3) * 32 + 32
    rw [e2]; omega

/-- After the region the output array is the pooled array. -/
theorem final (c : Dev nD) : (dats m 0 c).arrAt 2 cfg0.N = pooledHere m c :=
  (dats m 0 c).arrAt_eq_of_cover 2 (pooledHere m c) (fun t _ => flushed_eq m c t) covered

/-- The arrays the region finds, in terms of the program's arguments: the basis array is the second argument as
    launched, the per-graph feature array the first argument unstacked. -/
theorem pooledHere_eq (c : Dev nD) :
    pooledHere m c = pooled (m ((c.tc : Thread nD τ).loc main_arg1))
      (shapeCast S128x1024x32 (m ((c.tc : Thread nD τ).loc main_arg0) : S131072x32.Idx → Elt Ideal .f32) shapeCasts_S131072x32_S128x1024x32) := by
  unfold pooledHere
  rw [BlockReads.feats_entry, V_main_arg1]

/-- The program's result: the one host operation after the region stacks the output array. -/
theorem result_value (c : Dev nD) :
    Pipeline.afterTail₀ cfgs (dats m) 0 (V0 m) [hostOps1] c main_v2
      = stacked (m ((c.tc : Thread nD τ).loc main_arg0)) (m ((c.tc : Thread nD τ).loc main_arg1))
          shapeCasts_S131072x32_S128x1024x32 shapeCasts_S128x512x32_S65536x32 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
        = pooledHere m c from (Pipeline.withArrays_arr spec0 launch0.win.arr_inj c _ _ 2).trans (final m c),
    pooledHere_eq]
  rfl

/-- The run: every weakly fair execution terminates with the result at the stacked pooled features of the two
    arguments, and the arguments as launched. -/
theorem run : θ_run defs (onTc (τ := τ) (main (F := Ideal))) ⟨m, fun _ => 0, ρ⟩ fun r => ∀ c : Dev nD,
      r.2.mem ((c.tc : Thread nD τ).loc main_v2)
        = stacked (m ((c.tc : Thread nD τ).loc main_arg0)) (m ((c.tc : Thread nD τ).loc main_arg1))
            shapeCasts_S131072x32_S128x1024x32 shapeCasts_S128x512x32_S65536x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.PooledArray

end
-- ==== Proof.ReferencePooled.lean ====
/-
  The reference computes the same pooled array.

  The reference unstacks the features, contracts the basis array with them over the node axis with the graph axis as
  batch axis — entry `(b, r, f)` is `∑ n, U[b, n, r] · X[b, n, f]`, the pooled entry itself — and stacks the result.
  Read at an index the contraction's two operand indices are `(b, n, r)` and `(b, n, f)`.
-/
import proofs.«177638_j25598005085127_2_alg».proof.Proof.Pooling
import proofs.«177638_j25598005085127_2_alg».proof.Proof.Gen.ReferenceIdeal.Read

noncomputable section

namespace Cert.ReferenceIdeal.Pooled

open Cert.ReferenceIdeal Cert.ReferenceIdeal.Gen Cert.ReferenceIdeal.Read Cert.HaarPool
open Idealize.ShloMosaic Idealize.ShloMosaic.ValueIdx

/-- The reference's contraction is the pooled array of the unstacked features. -/
theorem product_eq (x : (⟨S131072x32, .f32⟩ : BufTy).Contents (Elt Ideal)) (U : (⟨S128x1024x512, .f32⟩ : BufTy).Contents (Elt Ideal)) :
    val_main_v1 (F := Ideal) x U = pooled U (val_main_v0 (F := Ideal) x) := by
  funext i
  obtain ⟨b, r, f, rfl⟩ : ∃ (b : Fin 128) (r : Fin 512) (f : Fin 32), i = ix3 b r f := ⟨i 0, i 1, i 2, eq_ix3 i⟩
  rw [val_main_v1_apply, pooled_apply]
  unfold entry
  refine Finset.sum_congr rfl fun n _ => ?_
  have el : lidx_main_v1 (ix3 b r f) n = ix3 b n r :=
    funext fun a => Fin.ext (by match a with | ⟨0, _⟩ => rfl | ⟨1, _⟩ => rfl | ⟨2, _⟩ => rfl)
  have er : ridx_main_v1 (ix3 b r f) n = ix3 b n f :=
    funext fun a => Fin.ext (by match a with | ⟨0, _⟩ => rfl | ⟨1, _⟩ => rfl | ⟨2, _⟩ => rfl)
  rw [el, er]

/-- The reference's result is the stacked pooled array of its two arguments. -/
theorem result_eq (x : (⟨S131072x32, .f32⟩ : BufTy).Contents (Elt Ideal)) (U : (⟨S128x1024x512, .f32⟩ : BufTy).Contents (Elt Ideal)) :
    val_main_v2 (F := Ideal) x U
      = stacked x U shapeCasts_S131072x32_S128x1024x32 shapeCasts_S128x512x32_S65536x32 := by
  unfold val_main_v2 stacked
  rw [product_eq]
  rfl

end Cert.ReferenceIdeal.Pooled

end
-- ==== Proof.lean ====
/-
  Haar pooling, kernel against reference, over the extended reals.

  Both programs map stacked node features `x : 131072 × 32` and per-graph basis matrices `U : 128 × 1024 × 512` to
  the stacked pooled features `65536 × 32`: unstack `x` into 128 graphs of 1024 nodes, send graph `b` to
  `U[b]ᵀ · X[b]`, whose entry `(r, f)` is `∑ n, U[b, n, r] · X[b, n, f]`, and stack the 128 results
  (`HaarPool.stacked`, Proof/Pooling.lean). The reference does so with one batched contraction
  (Proof/ReferencePooled.lean). The kernel does so four graphs at a time over a grid of 32 points, each point
  multiplying its basis block with its feature block into a zero accumulator after narrowing both to sixteen-bit
  floats — the identity on extended reals — (Proof/BlockProduct.lean, Proof/BlockReads.lean), and the 32 written
  blocks tile the output (Proof/PooledArray.lean). Entry by entry the two programs form the same sum of the same
  products in the same order, so no law of arithmetic is needed and the inputs' finiteness is never used.

  The kernel's idealization rewrote nothing, so there is nothing to preserve; the three programs' runs (termination,
  no fault, arguments unchanged) are the generated frames and the reference's generated run.
-/
import proofs.«177638_j25598005085127_2_alg».proof.Defs
import proofs.«177638_j25598005085127_2_alg».proof.Proof.Gen.Kernel
import proofs.«177638_j25598005085127_2_alg».proof.Proof.Gen.Kernel.Skeleton
import proofs.«177638_j25598005085127_2_alg».proof.Proof.Gen.Kernel.Launch
import proofs.«177638_j25598005085127_2_alg».proof.Proof.Gen.Kernel.Points
import proofs.«177638_j25598005085127_2_alg».proof.Proof.Gen.Kernel.Frame
import proofs.«177638_j25598005085127_2_alg».proof.Proof.Gen.KernelIdeal
import proofs.«177638_j25598005085127_2_alg».proof.Proof.Gen.KernelIdeal.Skeleton
import proofs.«177638_j25598005085127_2_alg».proof.Proof.Gen.KernelIdeal.Launch
import proofs.«177638_j25598005085127_2_alg».proof.Proof.Gen.KernelIdeal.Points
import proofs.«177638_j25598005085127_2_alg».proof.Proof.Gen.KernelIdeal.Frame
import proofs.«177638_j25598005085127_2_alg».proof.Proof.Gen.ReferenceIdeal
import proofs.«177638_j25598005085127_2_alg».proof.Proof.Gen.Pre_finite_inputs
import proofs.«177638_j25598005085127_2_alg».proof.Proof.Gen.ReferenceIdeal.Run
import proofs.«177638_j25598005085127_2_alg».proof.Proof.Gen.ReferenceIdeal.Read
import proofs.«177638_j25598005085127_2_alg».proof.Proof.PooledArray
import proofs.«177638_j25598005085127_2_alg».proof.Proof.ReferencePooled
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `U` both programs end with the stacked pooled features of `x` and `U`. -/
theorem algebraic : Cert.algebraic_KernelIdeal_ReferenceIdeal := by
  intro m ρ m' ρ' _ hagree
  refine ⟨fun c => Cert.HaarPool.stacked
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      Cert.KernelIdeal.Facts₀.shapeCasts_S131072x32_S128x1024x32 Cert.KernelIdeal.Facts₀.shapeCasts_S128x512x32_S65536x32,
    Cert.KernelIdeal.PooledArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Pooled.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
